-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x256 : Shape := ⟨2, ![262144, 256]⟩
abbrev S_ : Shape := ⟨0, ![]⟩

class Facts : Prop where
  bcast_S_S262144x256 : S_.BroadcastsInDim S262144x256 (![] : Fin 0 → Fin S262144x256.rank)
  reducesTo_S262144x256_S_d0_1 : S262144x256.ReducesTo [0, 1] S_
  h_S_ : 0 < S_.numel

variable [Facts]

def fn {F : FTy → Type} [FloatOps F] (main_arg0 : FVec F S262144x256 .f32) (main_arg1 : FVec F S262144x256 .f32) (main_arg2 : FVec F S262144x256 .f32) : IVec S_ 1 :=
  let main_v0 : FVec F S262144x256 .f32 := Host.absf main_arg0
  let main_cst : FVec F S_ .f32 := constant S_ .f32 0x7F800000#32
  let main_v1 : FVec F S262144x256 .f32 := broadcastInDim S262144x256 ![] bcast_S_S262144x256 main_cst
  let main_v2 : IVec S262144x256 1 := cmpf .olt main_v0 main_v1
  let main_c : IVec S_ 1 := constantI S_ 1 1#1
  let main_v3 : IVec S_ 1 := (fun x v => Host.reduce IntOp.andi x v reducesTo_S262144x256_S_d0_1 h_S_) main_v2 main_c
  let main_v4 : FVec F S262144x256 .f32 := Host.absf main_arg1
  let main_cst_0 : FVec F S_ .f32 := constant S_ .f32 0x7F800000#32
  let main_v5 : FVec F S262144x256 .f32 := broadcastInDim S262144x256 ![] bcast_S_S262144x256 main_cst_0
  let main_v6 : IVec S262144x256 1 := cmpf .olt main_v4 main_v5
  let main_c_1 : IVec S_ 1 := constantI S_ 1 1#1
  let main_v7 : IVec S_ 1 := (fun x v => Host.reduce IntOp.andi x v reducesTo_S262144x256_S_d0_1 h_S_) main_v6 main_c_1
  let main_v8 : IVec S_ 1 := andi main_v3 main_v7
  let main_v9 : FVec F S262144x256 .f32 := Host.absf main_arg2
  let main_cst_2 : FVec F S_ .f32 := constant S_ .f32 0x7F800000#32
  let main_v10 : FVec F S262144x256 .f32 := broadcastInDim S262144x256 ![] bcast_S_S262144x256 main_cst_2
  let main_v11 : IVec S262144x256 1 := cmpf .olt main_v9 main_v10
  let main_c_3 : IVec S_ 1 := constantI S_ 1 1#1
  let main_v12 : IVec S_ 1 := (fun x v => Host.reduce IntOp.andi x v reducesTo_S262144x256_S_d0_1 h_S_) main_v11 main_c_3
  let main_v13 : IVec S_ 1 := andi main_v8 main_v12
  main_v13
-- ==== Kernel.lean ====
abbrev S262144x256 : Shape := ⟨2, ![262144, 256]⟩
abbrev S262144x1 : Shape := ⟨2, ![262144, 1]⟩
abbrev S4096x256 : Shape := ⟨2, ![4096, 256]⟩
abbrev S4096x1 : Shape := ⟨2, ![4096, 1]⟩
abbrev S4096 : Shape := ⟨1, ![4096]⟩

abbrev nBuf : Space → Nat
  | .hbm => 4
  | .vmem => 8
  | .smem => 0
  | _ => 0

abbrev bufTy : (tb : Table) → Fin (tcTables nBuf tb) → BufTy
  | .hbm, ⟨0, _⟩ => ⟨S262144x256, .f32⟩
  | .hbm, ⟨1, _⟩ => ⟨S262144x256, .f32⟩
  | .hbm, ⟨2, _⟩ => ⟨S262144x256, .f32⟩
  | .hbm, ⟨3, _⟩ => ⟨S262144x1, .f32⟩
  | .local _ .vmem, ⟨0, _⟩ => ⟨S4096x256, .f32⟩
  | .local _ .vmem, ⟨1, _⟩ => ⟨S4096x256, .f32⟩
  | .local _ .vmem, ⟨2, _⟩ => ⟨S4096x256, .f32⟩
  | .local _ .vmem, ⟨3, _⟩ => ⟨S4096x256, .f32⟩
  | .local _ .vmem, ⟨4, _⟩ => ⟨S4096x256, .f32⟩
  | .local _ .vmem, ⟨5, _⟩ => ⟨S4096x256, .f32⟩
  | .local _ .vmem, ⟨6, _⟩ => ⟨S4096x1, .f32⟩
  | .local _ .vmem, ⟨7, _⟩ => ⟨S4096x1, .f32⟩
  | _, _ => ⟨S262144x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S4096x256_S4096x256_0_0 : ∀ a, (![0, 0] : Fin 2 → Nat) a + S4096x256.size a ≤ S4096x256.size a
  h_S4096x256 : 0 < S4096x256.numel
  reduces_S4096x256_S4096 : S4096x256.Reduces [1] S4096
  shapeCasts_S4096_S4096x1 : S4096.ShapeCasts S4096x1
  inb_S4096x1_S4096x1_0_0 : ∀ a, (![0, 0] : Fin 2 → Nat) a + S4096x1.size a ≤ S4096x1.size a
  h_S4096x1 : 0 < S4096x1.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S262144x256.size a
  hwx0_0 : ∀ i : grid0.Coords, EltTy.bits .f32 = 32 ∨ (Rect.block (s := S262144x256) S4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S262144x256.size a
  hwx0_1 : ∀ i : grid0.Coords, EltTy.bits .f32 = 32 ∨ (Rect.block (s := S262144x256) S4096x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x256.size a ≤ S262144x256.size a
  hwx0_2 : ∀ i : grid0.Coords, EltTy.bits .f32 = 32 ∨ (Rect.block (s := S262144x256) S4096x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x1.size a ≤ S262144x1.size a
  hwx0_3 : ∀ i : grid0.Coords, EltTy.bits .f32 = 32 ∨ (Rect.block (s := S262144x1) S4096x1.size (cc0_transform_3 i) (hinb0_3 i)).WholeWords (EltTy.packing .f32)

variable [Facts₀]

abbrev win0_0 : Pipeline.Window sig grid0 :=
  Pipeline.Window.ofSpec (Memref.whole main_arg0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4096x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S4096x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S262144x256 : Shape := ⟨2, ![262144, 256]⟩
abbrev S_ : Shape := ⟨0, ![]⟩
abbrev S262144 : Shape := ⟨1, ![262144]⟩
abbrev S262144x1 : Shape := ⟨2, ![262144, 1]⟩

abbrev nBuf : Space → Nat
  | .hbm => 18
  | .vmem => 0
  | .smem => 0
  | _ => 0

abbrev bufTy : (tb : Table) → Fin (tcTables nBuf tb) → BufTy
  | .hbm, ⟨0, _⟩ => ⟨S262144x256, .f32⟩
  | .hbm, ⟨1, _⟩ => ⟨S262144x256, .f32⟩
  | .hbm, ⟨2, _⟩ => ⟨S262144x256, .f32⟩
  | .hbm, ⟨3, _⟩ => ⟨S262144x256, .f32⟩
  | .hbm, ⟨4, _⟩ => ⟨S_, .f32⟩
  | .hbm, ⟨5, _⟩ => ⟨S262144, .f32⟩
  | .hbm, ⟨6, _⟩ => ⟨S262144x1, .f32⟩
  | .hbm, ⟨7, _⟩ => ⟨S262144x256, .f32⟩
  | .hbm, ⟨8, _⟩ => ⟨S_, .f32⟩
  | .hbm, ⟨9, _⟩ => ⟨S262144, .f32⟩
  | .hbm, ⟨10, _⟩ => ⟨S262144x1, .f32⟩
  | .hbm, ⟨11, _⟩ => ⟨S_, .f32⟩
  | .hbm, ⟨12, _⟩ => ⟨S262144x1, .f32⟩
  | .hbm, ⟨13, _⟩ => ⟨S262144x1, .f32⟩
  | .hbm, ⟨14, _⟩ => ⟨S262144x1, .f32⟩
  | .hbm, ⟨15, _⟩ => ⟨S_, .f32⟩
  | .hbm, ⟨16, _⟩ => ⟨S262144x1, .f32⟩
  | .hbm, ⟨17, _⟩ => ⟨S262144x1, .f32⟩
  | _, _ => ⟨S262144x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩

abbrev nD : Nat := 1
abbrev τ : Topo := Topo.v7x

variable {F : FTy → Type} [FloatOps F]

class Facts₀ : Prop where
  reducesTo_S262144x256_S262144_d1 : S262144x256.ReducesTo [1] S262144
  h_S_ : 0 < S_.numel
  bcast_S262144_S262144x1_0 : S262144.BroadcastsInDim S262144x1 (![0] : Fin 1 → Fin S262144x1.rank)
  bcast_S_S262144x1 : S_.BroadcastsInDim S262144x1 (![] : Fin 0 → Fin S262144x1.rank)

variable [Facts₀]

class Facts : Prop extends Facts₀ where

variable [Facts]
-- ==== Proof.LibRealValued.lean ====
/-
  Real-valued extended reals.

  An extended real is REAL when it is neither infinity. Finite float inputs are real entries; sums, differences,
  products, finite sums, maxima and exponentials of real entries are real, so every intermediate of a program built
  from those operations on finite inputs — a matrix product plus a bias, a score, a softmax weight — is real, and a
  whole array of real entries is the coercion of one real-valued function (`exists_real_fun`). This is what lets an
  identity proved over the reals (distributivity, cancelling a positive factor, exp of a sum) be used on the extended
  reals, where it fails at the infinities.
-/
import Idealize.ShloMosaic.PureOps.Ideal

noncomputable section

namespace Cert.Lib.RealValued

open Idealize.ShloMosaic

/-- `x` is the coercion of a real number. -/
def IsReal (x : EReal) : Prop := ∃ r : ℝ, x = (r : EReal)

theorem isReal_coe (r : ℝ) : IsReal (r : EReal) := ⟨r, rfl⟩

theorem isReal_zero : IsReal (0 : EReal) := ⟨0, rfl⟩

theorem isReal_one : IsReal (1 : EReal) := ⟨1, rfl⟩

theorem IsReal.ne_top {x : EReal} (h : IsReal x) : x ≠ ⊤ := by
  obtain ⟨r, rfl⟩ := h; exact EReal.coe_ne_top r

theorem IsReal.ne_bot {x : EReal} (h : IsReal x) : x ≠ ⊥ := by
  obtain ⟨r, rfl⟩ := h; exact EReal.coe_ne_bot r

/-- Neither infinity: real. -/
theorem isReal_of_ne {x : EReal} (ht : x ≠ ⊤) (hb : x ≠ ⊥) : IsReal x :=
  ⟨x.toReal, (EReal.coe_toReal ht hb).symm⟩

/-- The element fact a "finite input" precondition states, `|x| < +∞` with `|x| = max x (-x)`: the entry is real. -/
theorem isReal_of_abs_lt_top {x : EReal} (h : max x (-x) < ⊤) : IsReal x := by
  refine isReal_of_ne (fun e => ?_) (fun e => ?_)
  · rw [e] at h; exact absurd h (by simp)
  · rw [e] at h; exact absurd h (by simp)

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.neg {x : EReal} (hx : IsReal x) : IsReal (-x) := by
  obtain ⟨a, rfl⟩ := hx; exact ⟨-a, (EReal.coe_neg a).symm⟩

theorem IsReal.max {x y : EReal} (hx : IsReal x) (hy : IsReal y) : IsReal (max x y) := by
  rcases max_choice x y with h | h <;> rw [h] <;> assumption

theorem IsReal.exp {x : EReal} (hx : IsReal x) : IsReal (Ideal.exp x) := by
  obtain ⟨a, rfl⟩ := hx; exact ⟨Real.exp a, rfl⟩

/-- A finite sum of real entries is real. -/
theorem IsReal.sum {ι : Type*} (S : Finset ι) {f : ι → EReal} (h : ∀ i ∈ S, IsReal (f i)) :
    IsReal (∑ i ∈ S, f i) := by
  classical
  induction S using Finset.induction_on with
  | empty => simpa using isReal_zero
  | insert a S ha ih =>
    rw [Finset.sum_insert ha]
    exact (h a (Finset.mem_insert_self a S)).add (ih fun i hi => h i (Finset.mem_insert_of_mem hi))

/-- A contraction of two arrays of real entries — one entry of a matrix product into a real accumulator — is real. -/
theorem isReal_dot {κ : Type*} [Fintype κ] {x y : κ → EReal} {acc : EReal} (hacc : IsReal acc)
    (hx : ∀ k, IsReal (x k)) (hy : ∀ k, IsReal (y k)) : IsReal (acc + ∑ k, x k * y k) :=
  hacc.add (IsReal.sum _ fun k _ => (hx k).mul (hy k))

/-- An array of real entries is the coercion of one real-valued function. -/
theorem exists_real_fun {α : Type*} {f : α → EReal} (h : ∀ a, IsReal (f a)) :
    ∃ g : α → ℝ, ∀ a, f a = ((g a : ℝ) : EReal) :=
  ⟨fun a => (h a).choose, fun a => (h a).choose_spec⟩

end Cert.Lib.RealValued

end
-- ==== Proof.Finite.lean ====
/-
  Finite inputs are real.

  The precondition says of each of the three input arrays that every entry x has |x| < +inf, where |x| is
  max x (-x) on the extended reals: three reductions by "and" over all entries, joined by "and". An extended real
  whose absolute value is below +inf is neither infinity, so it is a real number. Hence under the precondition every
  entry of every input is real, which is what the law between the two programs needs.
-/
import proofs.«123393_j1580547971567_2_alg».proof.Pre_finite_inputs
import proofs.«123393_j1580547971567_2_alg».proof.Proof.LibRealValued
import Idealize.ShloMosaic.Lib.ReduceAll
import Idealize.ShloMosaic.Lib.Affine
import Idealize.ShloMosaic.Lib.ValueIdx
import Idealize.ShloMosaic.PureOps.Ideal

noncomputable section

namespace Cert.Margin

open Idealize.ShloMosaic Cert.Lib.RealValued Cert.Pre_finite_inputs

variable [Cert.Pre_finite_inputs.Facts]
open Cert.Pre_finite_inputs.Facts

/-- A shape with no axis has one index. -/
instance scalarIdx_subsingleton : Subsingleton S_.Idx := ⟨fun _ _ => funext fun d => d.elim0⟩

/-- The word the precondition compares against denotes +inf. -/
theorem top_word : Ideal.ofBits .f32 0x7F800000#32 = (⊤ : EReal) := by
  simp [Ideal.ofBits, Ideal.ieee]

/-- One conjunct of the precondition: if "all entries have |x| < +inf" evaluates to true, every entry is real. -/
theorem all_real (x : FVec Ideal S262144x256 .f32) (j : S_.Idx)
    (h : Host.reduce IntOp.andi
          (cmpf .olt (Host.absf x) (broadcastInDim S262144x256 ![] bcast_S_S262144x256 (constant (F := Ideal) S_ .f32 0x7F800000#32)))
          (constantI S_ 1 1#1) reducesTo_S262144x256_S_d0_1 h_S_ j = 1#1)
    (i : S262144x256.Idx) : IsReal (x i) := by
  have e := Host.reduce_andi_all _ _ _ _ j h i
  have e' : Ideal.cmp .olt (max (x i) (-(x i))) (Ideal.ofBits .f32 0x7F800000#32) = 1#1 := e
  rw [top_word] at e'
  refine isReal_of_abs_lt_top ?_
  by_contra hlt
  have e0 : Ideal.cmp .olt (max (x i) (-(x i))) ⊤ = 0#1 := by
    show BitVec.ofBool (decide (max (x i) (-(x i)) < ⊤)) = 0#1
    rw [decide_eq_false hlt]; rfl
  rw [e0] at e'
  exact absurd e' (by decide)

/-- Under the precondition every entry of the three inputs is real. -/
theorem inputs_real (a0 a1 a2 : FVec Ideal S262144x256 .f32)
    (h : Cert.Pre_finite_inputs.fn (F := Ideal) a0 a1 a2 = fun _ => 1#1) :
    (∀ i, IsReal (a0 i)) ∧ (∀ i, IsReal (a1 i)) ∧ (∀ i, IsReal (a2 i)) := by
  have h0 := congrFun h ValueIdx.ix0
  dsimp only [Cert.Pre_finite_inputs.fn] at h0
  obtain ⟨h01, h2⟩ := IntOp.andi_eq_one.mp h0
  obtain ⟨h0', h1⟩ := IntOp.andi_eq_one.mp h01
  exact ⟨all_real a0 _ h0', all_real a1 _ h1, all_real a2 _ h2⟩

end Cert.Margin

end
-- ==== Proof.Spec.lean ====
/-
  What both programs compute.

  The inputs are three arrays im, knn, s of 262144 rows and 256 columns; the result has one entry per row r:
      max (margin + sum over the 256 columns d of (knn[r,d] - im[r,d]) * s[r,d], 0),
  the margin being the single-precision value nearest 0.2 (the same word in both programs, never evaluated).
-/
import Idealize.ShloMosaic.PureOps.Ideal
import Idealize.ShloMosaic.Lib.ValueIdx

noncomputable section

namespace Cert.Margin

open Idealize.ShloMosaic Idealize.ShloMosaic.ValueIdx

/-- The shape of each input: 262144 rows of 256 entries. -/
abbrev SIn : Shape := ⟨2, ![262144, 256]⟩
/-- The shape of the result: one entry per row, kept as a column. -/
abbrev SOut : Shape := ⟨2, ![262144, 1]⟩

/-- The loss of one row from the row's 256 entries of each input. -/
def rowLoss (K I S : Fin 256 → EReal) : EReal :=
  max (Ideal.ofBits .f32 0x3E4CCCCD#32 + ∑ d : Fin 256, (K d - I d) * S d) (Ideal.ofBits .f32 0x00000000#32)

/-- The result array: entry (r, 0) is row r's loss. -/
def loss (im knn s : SIn.Idx → EReal) : SOut.Idx → EReal := fun i =>
  rowLoss (fun d => knn (ix2 (⟨(i 0).val, idx2_lt0 i⟩ : Fin 262144) d))
    (fun d => im (ix2 (⟨(i 0).val, idx2_lt0 i⟩ : Fin 262144) d))
    (fun d => s (ix2 (⟨(i 0).val, idx2_lt0 i⟩ : Fin 262144) d))

end Cert.Margin

end
-- ==== Proof.Algebra.lean ====
/-
  The one law that joins the two programs.

  The kernel sums, along a row, the products (k - i) * s and adds the margin; the reference sums k * s and i * s
  along the row separately, adds the margin to the first sum and subtracts the second. Over the reals the two agree:
  the sum of (k_d - i_d) * s_d is the sum of k_d * s_d minus the sum of i_d * s_d. On the extended reals this
  needs every entry to be real (an infinite entry could make one side +inf - inf), so the law is stated for real
  entries. The margin c itself may be any extended real: it is only moved by associativity of addition.
-/
import proofs.«123393_j1580547971567_2_alg».proof.Proof.LibRealValued

noncomputable section

namespace Cert.Margin

open Cert.Lib.RealValued

/-- The coercion of a finite sum of reals is the sum of the coercions. -/
theorem coe_sum {ι : Type*} (S : Finset ι) (f : ι → ℝ) :
    ((∑ d ∈ S, f d : ℝ) : EReal) = ∑ d ∈ S, (f d : EReal) := by
  classical
  induction S using Finset.induction_on with
  | empty => simp
  | insert a S ha ih => rw [Finset.sum_insert ha, Finset.sum_insert ha, EReal.coe_add, ih]

/-- For real rows k, i, s: c + sum (k - i) * s = (c + (0 + sum k * s)) - (0 + sum i * s). The zeros are the
    initial values of the reference's two row sums. -/
theorem margin_split {n : ℕ} (c : EReal) (K I S : Fin n → EReal)
    (hK : ∀ d, IsReal (K d)) (hI : ∀ d, IsReal (I d)) (hS : ∀ d, IsReal (S d)) :
    c + ∑ d, (K d - I d) * S d = (c + (0 + ∑ d, K d * S d)) - (0 + ∑ d, I d * S d) := by
  obtain ⟨k, hk⟩ := exists_real_fun hK
  obtain ⟨i, hi⟩ := exists_real_fun hI
  obtain ⟨s, hs⟩ := exists_real_fun hS
  have e1 : ∑ d, (K d - I d) * S d = ((∑ d, (k d - i d) * s d : ℝ) : EReal) := by
    rw [coe_sum]
    exact Finset.sum_congr rfl fun d _ => by rw [hk d, hi d, hs d, ← EReal.coe_sub, ← EReal.coe_mul]
  have e2 : ∑ d, K d * S d = ((∑ d, k d * s d : ℝ) : EReal) := by
    rw [coe_sum]
    exact Finset.sum_congr rfl fun d _ => by rw [hk d, hs d, ← EReal.coe_mul]
  have e3 : ∑ d, I d * S d = ((∑ d, i d * s d : ℝ) : EReal) := by
    rw [coe_sum]
    exact Finset.sum_congr rfl fun d _ => by rw [hi d, hs d, ← EReal.coe_mul]
  have e4 : (∑ d, (k d - i d) * s d : ℝ) = (∑ d, k d * s d) - ∑ d, i d * s d := by
    rw [← Finset.sum_sub_distrib]
    exact Finset.sum_congr rfl fun d _ => by ring
  rw [e1, e2, e3, e4, zero_add, zero_add, EReal.coe_sub, sub_eq_add_neg, sub_eq_add_neg, add_assoc]

end Cert.Margin

end
-- ==== Proof.RefValue.lean ====
/-
  The reference computes the loss.

  Read at row r, the reference's result is max ((margin + (0 + sum_d knn[r,d] * s[r,d])) - (0 + sum_d im[r,d] * s[r,d]), 0):
  two row sums started from zero, the margin added to the first, the second subtracted. For real entries this is the
  loss of row r, by the law that a sum of (k - i) * s splits into the difference of the two sums.
-/
import proofs.«123393_j1580547971567_2_alg».proof.Proof.Gen.ReferenceIdeal.Read
import proofs.«123393_j1580547971567_2_alg».proof.Proof.Spec
import proofs.«123393_j1580547971567_2_alg».proof.Proof.Algebra

noncomputable section

namespace Cert.Margin

open Idealize.ShloMosaic Idealize.ShloMosaic.ValueIdx Cert.Lib.RealValued
open Cert.ReferenceIdeal Cert.ReferenceIdeal.Gen Cert.ReferenceIdeal.Read

/-- The reference's last stage, as a whole array, is the loss of the three inputs when their entries are real. -/
theorem reference_eq_loss (x0 x1 x2 : SIn.Idx → EReal)
    (h0 : ∀ i, IsReal (x0 i)) (h1 : ∀ i, IsReal (x1 i)) (h2 : ∀ i, IsReal (x2 i)) :
    val_main_v10 (F := Ideal) x0 x1 x2 = loss x0 x1 x2 := by
  funext i
  -- the entry of row r, column k that each row sum reads
  have eA : ∀ k : Fin 256, idx_main_v4 (idx_main_v5 i) k = ix2 (⟨(i 0).val, idx2_lt0 i⟩ : Fin 262144) k :=
    fun k => funext fun a => Fin.ext (by match a with | ⟨0, _⟩ => rfl | ⟨1, _⟩ => rfl)
  have eB : ∀ k : Fin 256, idx_main_v1 (idx_main_v2 i) k = ix2 (⟨(i 0).val, idx2_lt0 i⟩ : Fin 262144) k :=
    fun k => funext fun a => Fin.ext (by match a with | ⟨0, _⟩ => rfl | ⟨1, _⟩ => rfl)
  rw [val_main_v10_apply, val_main_v8_apply, val_main_v7_apply, val_main_v6_apply, val_main_v5_apply, val_main_v4_apply,
    val_main_v2_apply, val_main_v1_apply, val_main_v9_apply]
  simp only [val_main_v3_apply, val_main_v0_apply, val_main_cst_1_apply, val_main_cst_0_apply, val_main_cst_apply,
    val_main_cst_2_apply, eA, eB, Ideal.addf_def, Ideal.subf_def, Ideal.mulf_def, Ideal.maximumf_def, Ideal.ofBits_def]
  unfold loss rowLoss
  rw [Ideal.ofBits_zero_f32]
  refine congrArg (fun v => max v (0 : EReal)) ?_
  exact (margin_split _ _ _ _ (fun d => h1 _) (fun d => h0 _) (fun d => h2 _)).symm

end Cert.Margin

end
-- ==== Proof.KernelValue.lean ====
/-
  The kernel computes the loss.

  The grid has 64 points; point t works on rows 4096 t .. 4096 t + 4095: it fetches those rows of the three inputs
  (all 256 columns), and writes back the 4096 entries of the result column for those rows. Inside the block, entry
  (y, 0) is max (margin + the sum along row y of (knn - im) * s, 0) of the fetched rows. Row y of block t is row
  4096 t + y of the arrays, so what point t writes back is block t of the loss, and the 64 blocks cover all 262144
  rows: after the run the result array is the loss of the three inputs.
-/
import proofs.«123393_j1580547971567_2_alg».proof.Proof.Gen.KernelIdeal.Value
import proofs.«123393_j1580547971567_2_alg».proof.Proof.Spec
import Idealize.ShloMosaic.PureOps.Ideal.Laws

set_option maxRecDepth 16384

noncomputable section

namespace Cert.Margin.KernelValue

open Cert.KernelIdeal Cert.KernelIdeal.Gen Idealize.ShloMosaic Idealize.ShloMosaic.TcCoe Idealize.SL.Sem
open Idealize.ShloMosaic.Pipeline (Dat)
open Idealize.ShloMosaic.ValueIdx Cert.Margin

variable (m : (ℓ : Loc nD τ sig) → Buf (Elt Ideal) ℓ) (ρ : Dev nD → PrngReg)

/-- Every load and the store of the body start at the block's corner. -/
theorem corner : (![0, 0] : Fin 2 → Nat) = fun _ => 0 := funext fun a => by fin_cases a <;> rfl

/-- Entry (y, 0) of what the body leaves in the result block is the loss of row y of the three fetched blocks
    (P0 the block of knn, P1 of im, P2 of s: the order in which the body loads them). -/
theorem block_entry (P0 P1 P2 : Vec Ideal S4096x256 .f32) (y : S4096x1.Idx) :
    Cert.KernelIdeal.Value.E3 (F := Ideal) P0 P1 P2 y
      = rowLoss (fun d => P0 (ix2 (⟨(y 0).val, idx2_lt0 y⟩ : Fin 4096) d))
          (fun d => P1 (ix2 (⟨(y 0).val, idx2_lt0 y⟩ : Fin 4096) d))
          (fun d => P2 (ix2 (⟨(y 0).val, idx2_lt0 y⟩ : Fin 4096) d)) := by
  unfold rowLoss
  show max (Ideal.ofBits .f32 0x3E4CCCCD#32 + (multiReduction (F := Ideal) .add [1] S4096 (mulf (subf P0 P1) P2) 0x00000000#32 reduces_S4096x256_S4096 (.inl rfl) rfl) (Cert.KernelIdeal.Value.ix3_0 y)) (Ideal.ofBits .f32 0x00000000#32) = _
  refine congrArg (fun v => max (Ideal.ofBits .f32 0x3E4CCCCD#32 + v) (Ideal.ofBits .f32 0x00000000#32)) ?_
  refine (Ideal.multiReduction_add_single (mulf (subf P0 P1) P2) 0x00000000#32 reduces_S4096x256_S4096 (.inl rfl) rfl
    (Cert.KernelIdeal.Value.ix3_0 y)).trans ?_
  refine Finset.sum_congr rfl fun d _ => ?_
  have e : reduces_S4096x256_S4096.lift (Cert.KernelIdeal.Value.ix3_0 y) d = ix2 (⟨(y 0).val, idx2_lt0 y⟩ : Fin 4096) d :=
    funext fun a => Fin.ext (by match a with | ⟨0, _⟩ => rfl | ⟨1, _⟩ => rfl)
  rw [e]
  rfl

/-- The printed index maps, decided over the 64 points: each input's block index along the rows is the result's, and
    every block starts at column 0. -/
theorem index_facts : ∀ t : Fin cfg0.N,
    win0_0.index t (0 : Fin 2) = win0_3.index t (0 : Fin 2) ∧ win0_0.index t (1 : Fin 2) = 0
    ∧ win0_1.index t (0 : Fin 2) = win0_3.index t (0 : Fin 2) ∧ win0_1.index t (1 : Fin 2) = 0
    ∧ win0_2.index t (0 : Fin 2) = win0_3.index t (0 : Fin 2) ∧ win0_2.index t (1 : Fin 2) = 0
    ∧ win0_3.index t (0 : Fin 2) ≤ 63 ∧ win0_3.index t (1 : Fin 2) = 0 :=
  (by decide +kernel : ∀ t : Fin grid0.N, _)

/-- Every block of 4096 rows is some point's. -/
theorem index_onto : ∀ q : Fin 64, ∃ t : Fin cfg0.N, win0_3.index t = ![q.val, 0] :=
  (by decide +kernel : ∀ q : Fin 64, ∃ t : Fin grid0.N, win0_3.index t = ![q.val, 0])

/-- What point t writes back is block t of the loss of the arrays as the region finds them. -/
theorem flushed_eq (c : Dev nD) (t : Fin cfg0.N) :
    (dats m 0 c).flushed 3 t
      = ((cfg0.win 3).blk t).view.read (Elt Ideal) (loss (V m c main_arg0) (V m c main_arg1) (V m c main_arg2)) := by
  rw [Cert.KernelIdeal.Value.flushed3]
  unfold out0_3
  simp only [View.ld_unit_zero (S := S4096x256) corner]
  obtain ⟨e0, e1, e2, e3, e4, e5, e6, e7⟩ := index_facts t
  funext j
  have hj : (j 0).val < 4096 := (j 0).isLt
  have hr : ((((cfg0.win 3).blk t).view.emb j) 0).val < 262144 := ((((cfg0.win 3).blk t).view.emb j) 0).isLt
  refine (Cert.KernelIdeal.Value.canon3_eq (F := Ideal) (iblk m c 1 t) (iblk m c 0 t) (iblk m c 2 t) j).trans ?_
  refine (block_entry (iblk m c 1 t) (iblk m c 0 t) (iblk m c 2 t) j).trans ?_
  have h0 : ∀ d : Fin 256, ((cfg0.win 0).blk t).view.emb (ix2 (⟨(j 0).val, hj⟩ : Fin 4096) d)
      = ix2 (⟨((((cfg0.win 3).blk t).view.emb j) 0).val, hr⟩ : Fin 262144) d := by
    intro d; funext a; apply Fin.ext
    match a with
    | ⟨0, _⟩ => show win0_0.index t (0 : Fin 2) * 4096 + 1 * (j 0).val = win0_3.index t (0 : Fin 2) * 4096 + 1 * (j 0).val; omega
    | ⟨1, _⟩ => show win0_0.index t (1 : Fin 2) * 256 + 1 * d.val = d.val; omega
  have h1 : ∀ d : Fin 256, ((cfg0.win 1).blk t).view.emb (ix2 (⟨(j 0).val, hj⟩ : Fin 4096) d)
      = ix2 (⟨((((cfg0.win 3).blk t).view.emb j) 0).val, hr⟩ : Fin 262144) d := by
    intro d; funext a; apply Fin.ext
    match a with
    | ⟨0, _⟩ => show win0_1.index t (0 : Fin 2) * 4096 + 1 * (j 0).val = win0_3.index t (0 : Fin 2) * 4096 + 1 * (j 0).val; omega
    | ⟨1, _⟩ => show win0_1.index t (1 : Fin 2) * 256 + 1 * d.val = d.val; omega
  have h2 : ∀ d : Fin 256, ((cfg0.win 2).blk t).view.emb (ix2 (⟨(j 0).val, hj⟩ : Fin 4096) d)
      = ix2 (⟨((((cfg0.win 3).blk t).view.emb j) 0).val, hr⟩ : Fin 262144) d := by
    intro d; funext a; apply Fin.ext
    match a with
    | ⟨0, _⟩ => show win0_2.index t (0 : Fin 2) * 4096 + 1 * (j 0).val = win0_3.index t (0 : Fin 2) * 4096 + 1 * (j 0).val; omega
    | ⟨1, _⟩ => show win0_2.index t (1 : Fin 2) * 256 + 1 * d.val = d.val; omega
  show rowLoss (fun d => V m c main_arg1 (((cfg0.win 1).blk t).view.emb (ix2 (⟨(j 0).val, hj⟩ : Fin 4096) d)))
      (fun d => V m c main_arg0 (((cfg0.win 0).blk t).view.emb (ix2 (⟨(j 0).val, hj⟩ : Fin 4096) d)))
      (fun d => V m c main_arg2 (((cfg0.win 2).blk t).view.emb (ix2 (⟨(j 0).val, hj⟩ : Fin 4096) d)))
    = rowLoss (fun d => V m c main_arg1 (ix2 (⟨((((cfg0.win 3).blk t).view.emb j) 0).val, hr⟩ : Fin 262144) d))
      (fun d => V m c main_arg0 (ix2 (⟨((((cfg0.win 3).blk t).view.emb j) 0).val, hr⟩ : Fin 262144) d))
      (fun d => V m c main_arg2 (ix2 (⟨((((cfg0.win 3).blk t).view.emb j) 0).val, hr⟩ : Fin 262144) d))
  simp only [h0, h1, h2]

/-- An index of the result array is in point t's block iff each coordinate is in the block's range on its axis. -/
theorem mem_block (t : Fin cfg0.N) (i : S262144x1.Idx) :
    i ∈ ((cfg0.win 3).blk t).view.set ↔ ∀ a : Fin 2, win0_3.index t a * S4096x1.size a ≤ (i a).val ∧ (i a).val < win0_3.index t a * S4096x1.size a + S4096x1.size a := by
  show i ∈ ((View.whole main_v0).slice (win0_3.rect t)).set ↔ _
  rw [View.set_slice_whole, Rect.mem_set_unit]
  exact Iff.rfl

/-- Every row is in some point's block: row r in the block of point r / 4096. -/
theorem covered (i : S262144x1.Idx) :
    ∃ t : Fin cfg0.N, (cfg0.win 3).flush t = true ∧ i ∈ ((cfg0.win 3).blk t).view.set := by
  have hi0 : (i 0).val < 262144 := (i 0).isLt
  have hi1 : (i 1).val < 1 := (i 1).isLt
  obtain ⟨t, ht⟩ := index_onto ⟨(i 0).val / 4096, by omega⟩
  have q0 : win0_3.index t (0 : Fin 2) = (i 0).val / 4096 := congrFun ht 0
  have q1 : win0_3.index t (1 : Fin 2) = 0 := congrFun ht 1
  refine ⟨t, flush0_3 t, ?_⟩
  rw [mem_block]
  intro a
  match a with
  | ⟨0, _⟩ => show win0_3.index t (0 : Fin 2) * 4096 ≤ (i 0).val ∧ (i 0).val < win0_3.index t (0 : Fin 2) * 4096 + 4096; omega
  | ⟨1, _⟩ => show win0_3.index t (1 : Fin 2) * 1 ≤ (i 1).val ∧ (i 1).val < win0_3.index t (1 : Fin 2) * 1 + 1; omega

/-- The result array after the run is the loss of the three inputs as launched. -/
theorem final (c : Dev nD) :
    (dats m 0 c).arrAt 3 cfg0.N
      = loss (m ((c : Thread nD τ).loc main_arg0)) (m ((c : Thread nD τ).loc main_arg1)) (m ((c : Thread nD τ).loc main_arg2)) :=
  (dats m 0 c).arrAt_eq_of_cover 3 (loss (V m c main_arg0) (V m c main_arg1) (V m c main_arg2))
    (fun t _ => flushed_eq m c t) covered

/-- The kernel's run: it terminates with the result array at the loss of the inputs, the inputs unchanged. -/
theorem run : θ_run defs (onTc (τ := τ) (main (F := Ideal))) ⟨m, fun _ => 0, ρ⟩ fun r => ∀ c : Dev nD,
      r.2.mem ((c : Thread nD τ).loc main_v0)
        = loss (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.Margin.KernelValue

end
-- ==== Proof.lean ====
/-
  The kernel and its reference compute the same loss.

  Three arrays im, knn, s of 262144 rows and 256 columns go in; one number per row comes out:
      max (margin + knn_row . s_row - im_row . s_row, 0).
  The reference takes the two row-by-row dot products separately, adds the margin to the first and subtracts the
  second. The kernel fuses them: it sums (knn - im) * s along the row, once, and adds the margin. On real entries the
  two are equal, because a sum of (k - i) * s is the sum of k * s minus the sum of i * s; the precondition makes every
  entry real (an entry with |x| < +inf is neither infinity), which is what this needs on the extended reals.

  The parts: Spec (the loss as one function of the three arrays), Algebra (the law, for real rows), Finite (the
  precondition gives real entries), RefValue (the reference's run, read at a row, is the loss), KernelValue (each of the
  64 grid points writes 4096 rows of the loss, and the 64 blocks are the whole result). The three frames are the
  generated ones (the reference's is its run with the result dropped); the idealized kernel is the kernel's own text
  read over the extended reals, so nothing is owed for that step.
-/
import proofs.«123393_j1580547971567_2_alg».proof.Defs
import proofs.«123393_j1580547971567_2_alg».proof.Proof.Gen.Kernel
import proofs.«123393_j1580547971567_2_alg».proof.Proof.Gen.Kernel.Skeleton
import proofs.«123393_j1580547971567_2_alg».proof.Proof.Gen.Kernel.Launch
import proofs.«123393_j1580547971567_2_alg».proof.Proof.Gen.Kernel.Points
import proofs.«123393_j1580547971567_2_alg».proof.Proof.Gen.Kernel.Frame
import proofs.«123393_j1580547971567_2_alg».proof.Proof.Gen.KernelIdeal
import proofs.«123393_j1580547971567_2_alg».proof.Proof.Gen.KernelIdeal.Skeleton
import proofs.«123393_j1580547971567_2_alg».proof.Proof.Gen.KernelIdeal.Launch
import proofs.«123393_j1580547971567_2_alg».proof.Proof.Gen.KernelIdeal.Points
import proofs.«123393_j1580547971567_2_alg».proof.Proof.Gen.KernelIdeal.Frame
import proofs.«123393_j1580547971567_2_alg».proof.Proof.Gen.KernelIdeal.Value
import proofs.«123393_j1580547971567_2_alg».proof.Proof.Gen.ReferenceIdeal
import proofs.«123393_j1580547971567_2_alg».proof.Proof.Gen.ReferenceIdeal.Run
import proofs.«123393_j1580547971567_2_alg».proof.Proof.Gen.ReferenceIdeal.Read
import proofs.«123393_j1580547971567_2_alg».proof.Proof.Gen.Pre_finite_inputs
import proofs.«123393_j1580547971567_2_alg».proof.Proof.Finite
import proofs.«123393_j1580547971567_2_alg».proof.Proof.RefValue
import proofs.«123393_j1580547971567_2_alg».proof.Proof.KernelValue
import Idealize.ShloMosaic.Adequacy
import Idealize.ShloMosaic.Init

noncomputable section

namespace Cert.Proof

open Idealize.ShloMosaic Idealize.ShloMosaic.TcCoe Idealize.SL.Sem

/-- The kernel as printed runs to the end and leaves its inputs alone. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's run, with what it says about the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From inputs that agree and are finite, both programs end with the loss of those inputs in their result. -/
theorem algebraic : Cert.algebraic_KernelIdeal_ReferenceIdeal := by
  intro m ρ m' ρ' hpre hagree
  refine ⟨_, Cert.Margin.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨r0, r1, r2⟩ := Cert.Margin.inputs_real _ _ _ (hpre c)
  rw [Cert.ReferenceIdeal.Read.val_main_v10_eq, (hagree c).1, (hagree c).2.1, (hagree c).2.2]
  exact Cert.Margin.reference_eq_loss _ _ _ r0 r1 r2

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
